-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S1024x1024 .f32
  ∧ IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v37 : BitVec 1 := Scalar.cmpi .eq arg2 c3_i32
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one run of the body leaves behind, in each of its three control cases, as a value.

  The body keeps a 1024 × 1024 accumulator between grid points. At the first point of a contraction (third grid coordinate 0)
  it first stores the zero block into the accumulator; at every point it then loads the accumulator, adds the product of the
  two binarized input blocks, and stores the sum back; at the last point (third coordinate 3) it finally copies the accumulator
  into the output block. Each store covers its whole buffer, so what a buffer holds afterwards is the last store's value, and a
  load that follows a covering store reads that store's value. Hence:

    first point   the accumulator ends at  step x0 x1 zero      (the step applied to the freshly stored zero block)
    middle point  the accumulator ends at  step x0 x1 acc
    last point    the accumulator ends at  step x0 x1 acc, and the output block holds that same value

  where `x0`, `x1` are the two input blocks, `acc` is what the point before left, `zero` is the body's reset value and `step`
  is the body's one arithmetic expression. These hold for any float values.
-/
import proofs.«170087_j74440373174392_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

/-- A block's stores and loads all start at the block's origin. -/
theorem origin : (![0, 0] : Fin 2 → Nat) = fun _ => 0 := funext fun a => by fin_cases a <;> rfl

/-- FIRST POINT of a contraction: the accumulator ends at the step applied to the zero block just stored into it. -/
theorem acc_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .f32) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- MIDDLE POINT: the accumulator ends at the step applied to what the point before left. -/
theorem acc_middle (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 acc : Vec F S1024x1024 .f32) :
    sout0_B_0 c i a3 h3 a4 h4 a5 h5 a6 h6 hc0 hc1 x0 x1 acc = k0_pay2 x0 x1 acc := by
  unfold sout0_B_0
  rw [View.read_writes_eq_canon _ _ _ (scover0_B_0 c i a3 h3 a4 h4 a5 h5 a6 h6 hc0 hc1 x0 x1 acc)]
  unfold kernelRun0_B
  dsimp only
  rw [View.canon_unit_zero origin]
  simp only [View.readAt_eq_ld, h3.read_unread, h4.read_unread, h6.read_unread, View.ld_unit_zero (S := S1024x1024) origin]

/-- LAST POINT, the accumulator: the same step. -/
theorem acc_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 acc : Vec F S1024x1024 .f32) :
    sout0_C_0 c i a3 h3 a4 h4 a5 h5 a6 h6 hc0 hc1 x0 x1 acc = k0_pay2 x0 x1 acc := by
  unfold sout0_C_0
  rw [View.read_writes_eq_canon _ _ _ (scover0_C_0 c i a3 h3 a4 h4 a5 h5 a6 h6 hc0 hc1 x0 x1 acc)]
  unfold kernelRun0_C
  dsimp only
  sl_unfold_words
  rw [View.canon_unit_zero origin]
  simp only [View.readAt_eq_ld, h3.read_unread, h4.read_unread, h6.read_unread, View.ld_unit_zero (S := S1024x1024) origin]

/-- LAST POINT, the output block: the accumulator's final value, read back after the step's store and copied out. -/
theorem out_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 acc : Vec F S1024x1024 .f32) :
    out0_C_2 c i a3 h3 a4 h4 a5 h5 a6 h6 hc0 hc1 x0 x1 acc = k0_pay2 x0 x1 acc := by
  unfold out0_C_2
  rw [View.read_writes_eq_canon _ _ _ (cover0_C_2 c i a3 h3 a4 h4 a5 h5 a6 h6 hc0 hc1 x0 x1 acc)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x1024) origin]

end Cert.KernelIdeal.Pieces

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.BinDot.lean ====
/-
  The binarized product, as one function of the two argument arrays.

  Both programs add the same small offset to every entry of `x` (8192 × 4096) and of `w` (4096 × 4096), take the sign of
  the result (`-1`, `0` or `1`), and contract the two sign matrices along their second axes: entry `(r, c)` of the result
  is the sum over `k` of `sign (x (r, k) + ε) · sign (w (c, k) + ε)`.

  One program takes the contraction whole, a sum over all 4096 positions. The other cuts the contracted axis into four
  consecutive stretches of 1024 and adds the four partial sums in order. The two agree because a finite sum may be regrouped
  into consecutive blocks using only associativity and commutativity of the addition, which hold on all of the extended
  reals: nothing here asks the entries to be finite.
-/
import Idealize.ShloMosaic.PureOps.Ideal.Laws
import Idealize.ShloMosaic.Lib.ValueIdx
import proofs.«170087_j74440373174392_1_alg».proof.Proof.LibSumBlocks

noncomputable section

namespace Cert.BinDot

open Idealize.ShloMosaic Idealize.ShloMosaic.ValueIdx Cert.Lib.SumBlocks

/-- The shape of `x` and of the result, of `w`, and of one block. -/
abbrev SX : Shape := ⟨2, ![8192, 4096]⟩
abbrev SW : Shape := ⟨2, ![4096, 4096]⟩
abbrev SB : Shape := ⟨2, ![1024, 1024]⟩

/-- The offset added before the sign is taken: the extended real the f32 word `0x1E3CE508` denotes. Both programs carry
    this same word, so its value is never needed. -/
abbrev eps : EReal := Ideal.ofBits .f32 0x1E3CE508#32

/-- One binarized entry: the sign of the entry moved by the offset. -/
def bin (v : EReal) : EReal := Ideal.sign (v + eps)

/-- The product's summand at row `r` of `x`, row `c` of `w` and contracted position `k`. -/
def term (x : SX.Idx → EReal) (w : SW.Idx → EReal) (r : Fin 8192) (c : Fin 4096) (k : Fin 4096) : EReal :=
  bin (x (ix2 r k)) * bin (w (ix2 c k))

/-- THE RESULT: entry `(r, c)` is the contraction, over all 4096 positions, of row `r` of the binarized `x` with row `c` of
    the binarized `w`. -/
def out (x : SX.Idx → EReal) (w : SW.Idx → EReal) : SX.Idx → EReal :=
  fun i => ∑ k : Fin 4096, term x w (i 0) (i 1) k

/-- What one 1024 × 1024 block of `x` and one of `w` contribute to a 1024 × 1024 block of the result: at `(p, q)` the
    contraction of row `p` of the first with row `q` of the second over the block's 1024 positions. -/
def blockTerm (x0 x1 : SB.Idx → EReal) : SB.Idx → EReal :=
  fun j => ∑ r : Fin 1024, bin (x0 (ix2 (j 0) r)) * bin (x1 (ix2 (j 1) r))

/-- THE LAW BETWEEN THE TWO SIDES: the whole contraction is the sum, over the four consecutive stretches of 1024 positions, of
    each stretch's contraction; position `q` of stretch `s` is the natural `s * 1024 + q`. -/
theorem out_eq_stretches (x : SX.Idx → EReal) (w : SW.Idx → EReal) (i : SX.Idx) :
    out x w i = ∑ s ∈ Finset.range 4, ∑ q : Fin 1024, onNat (term x w (i 0) (i 1)) (s * 1024 + q.val) :=
  sum_fin_blocks 4 1024 rfl (term x w (i 0) (i 1))

end Cert.BinDot

end
-- ==== Proof.Payload.lean ====
/-
  The body's arithmetic, read at one entry of a block, over the extended reals.

  The body's one expression takes the two loaded input blocks `x0`, `x1` and the accumulator `acc`. It adds the offset to every
  entry of each input block and takes the sign — written by the lowering as "where the magnitude is above zero, minus one or one
  by whether the entry is below zero; elsewhere the entry itself", which on every extended real is the sign (zero at zero, ∓1 at
  the infinities) —, narrows both sign blocks to a sixteen-bit format (no change to an extended real), multiplies the first by the
  transpose of the second into a zero accumulator, and adds the product to `acc`. So at `(p, q)` it is

      acc (p, q) + Σ_{r < 1024} sign (x0 (p, r) + ε) · sign (x1 (q, r) + ε),

  and the reset value is `0` at every entry.
-/
import proofs.«170087_j74440373174392_1_alg».proof.Proof.Gen.KernelIdeal.Skeleton
import proofs.«170087_j74440373174392_1_alg».proof.Proof.BinDot
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.BlockValue

open Cert.KernelIdeal Cert.KernelIdeal.Gen Cert.BinDot

/-! ## The block product's operand positions

The product contracts axis 1 of both operands: output entry `(p, q)` and contracted position `k` read the first operand at
`(p, k)` and the second at `(q, k)`. -/

theorem lhs_row (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_pos (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
theorem rhs_row (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_pos (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The product of two blocks into a zero accumulator, at `(p, q)`: row `p` of the first contracted with row `q` of the second. -/
theorem dot_apply (l r : FVec Ideal S1024x1024 .bf16) (p q : Fin 1024) :
    matmul dot_S1024x1024_S1024x1024_S1024x1024_1_1_0_0_n_n none l r (constant (F := Ideal) S1024x1024 .f32 0x00000000#32) (ix2 p q)
      = ∑ k : Fin 1024, l (ix2 p k) * r (ix2 q k) := by
  refine (Ideal.matmul_constant_zero_apply dot_S1024x1024_S1024x1024_S1024x1024_1_1_0_0_n_n none l r (ix2 p q)).trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_row _ _
    | ⟨1, _⟩ => exact (lhs_pos _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_row _ _
    | ⟨1, _⟩ => exact (rhs_pos _ _).trans hk)
  rw [el, er]

/-! ## The sign of an entry moved by the offset -/

/-- The body's binarizing expression at an entry: the sign of the entry plus the offset, on every extended real. -/
theorem binarize_apply (x : FVec Ideal S1024x1024 .f32) (i : S1024x1024.Idx) :
    (truncf .bf16 (select (cmpf .ogt (absf (addf x (broadcast S1024x1024 (Scalar.ofBits (F := Ideal) .f32 0x1E3CE508#32)))) (broadcast S1024x1024 (Scalar.ofBits (F := Ideal) .f32 0x00000000#32)))
        (select (cmpf .olt (addf x (broadcast S1024x1024 (Scalar.ofBits (F := Ideal) .f32 0x1E3CE508#32))) (constant (F := Ideal) S1024x1024 .f32 0x00000000#32)) (constant (F := Ideal) S1024x1024 .f32 0xBF800000#32) (constant (F := Ideal) S1024x1024 .f32 0x3F800000#32))
        (addf x (broadcast S1024x1024 (Scalar.ofBits (F := Ideal) .f32 0x1E3CE508#32)))) bitsLt_bf16_f32 : FVec Ideal S1024x1024 .bf16) i
      = bin (x i) :=
  Ideal.jnp_sign_eq_sign_f32 (x i + eps)

/-! ## The reset value and the step -/

/-- The reset stores zero at every entry. -/
theorem reset_apply (j : S1024x1024.Idx) : k0_pay1 (F := Ideal) j = 0 := by
  unfold k0_pay1
  refine (congrFun (shapeCast_self _ _) j).trans ?_
  exact Ideal.ofBits_zero_f32

/-- THE STEP at `(p, q)`: the accumulator's entry plus the two input blocks' contribution there. -/
theorem step_apply (x0 x1 acc : Vec Ideal S1024x1024 .f32) (p q : Fin 1024) :
    k0_pay2 (F := Ideal) x0 x1 acc (ix2 p q) = acc (ix2 p q) + blockTerm x0 x1 (ix2 p q) := by
  unfold k0_pay2
  refine (congrFun (shapeCast_self _ _) (ix2 p q)).trans ?_
  show acc (ix2 p q) + _ = acc (ix2 p q) + _
  refine congrArg (acc (ix2 p q) + ·) ?_
  refine (dot_apply _ _ p q).trans ?_
  exact Finset.sum_congr rfl fun k _ => congrArg₂ (· * ·) (binarize_apply x0 (ix2 p k)) (binarize_apply x1 (ix2 q k))

end Cert.KernelIdeal.BlockValue

end
-- ==== Proof.Fold.lean ====
/-
  The accumulator along one contraction, and what the last point of a contraction writes back.

  The grid's 128 points come in 32 runs of four consecutive points, one run per output block; within a run the third grid
  coordinate counts 0, 1, 2, 3. Call point `n`'s ADDEND the contribution of its two input blocks to a result block: at `(p, q)`,
  row `p` of the first binarized block contracted with row `q` of the second. Then

    * the first point of a run leaves `0 + addend` in the accumulator (whatever it held),
    * every later point leaves `acc + addend`,

  so after `j + 1` points of a run starting at `b` the accumulator holds `0 + Σ_{s ≤ j} addend (b + s)`, by the fold of a run
  each of whose steps adds a term. The run's last point copies the accumulator into the output block, which is then written back:
  what it writes is `0 + Σ_{s < 4} addend (b + s)`.
-/
import proofs.«170087_j74440373174392_1_alg».proof.Proof.Gen.KernelIdeal.Value
import proofs.«170087_j74440373174392_1_alg».proof.Proof.Pieces
import proofs.«170087_j74440373174392_1_alg».proof.Proof.Payload
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Value Cert.KernelIdeal.Pieces Cert.KernelIdeal.BlockValue Cert.BinDot

variable (m : (ℓ : Loc nD τ sig) → Buf (Elt Ideal) ℓ)

/-- POINT `n`'S ADDEND: what its two input blocks contribute to a result block; zero for a natural past the grid, so that a
    point may be named by a run's start plus an offset without a bound in its type. -/
def addend (c : Dev nD) (n : ℕ) : S1024x1024.Idx → EReal :=
  if h : n < cfg0.N then blockTerm (iblk m c 0 ⟨n, h⟩) (iblk m c 1 ⟨n, h⟩) else fun _ => 0

theorem addend_of_lt (c : Dev nD) (n : ℕ) (h : n < cfg0.N) :
    addend m c n = blockTerm (iblk m c 0 ⟨n, h⟩) (iblk m c 1 ⟨n, h⟩) := dif_pos h

/-- THE FIRST POINT OF A RUN leaves zero plus its addend in the accumulator, whatever the accumulator held. -/
theorem scratch_first (c : Dev nD) (n : ℕ) (h : n < cfg0.N) (h0 : n % 4 = 0) (acc : Vec Ideal S1024x1024 .f32) (p q : Fin 1024) :
    scAt0_0 m c n h acc (ix2 p q) = 0 + addend m c n (ix2 p q) := by
  have h1 : ¬n % 4 = 3 := by omega
  unfold scAt0_0
  rw [dif_pos h0, dif_neg h1]
  refine (congrFun (acc_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩)) (ix2 p q)).trans ?_
  refine (step_apply (iblk m c 0 ⟨n, h⟩) (iblk m c 1 ⟨n, h⟩) (k0_pay1 (F := Ideal)) p q).trans ?_
  rw [reset_apply, addend_of_lt m c n h]

/-- EVERY LATER POINT leaves what the point before left plus its addend. -/
theorem scratch_next (c : Dev nD) (n : ℕ) (h : n < cfg0.N) (h0 : ¬n % 4 = 0) (acc : Vec Ideal S1024x1024 .f32) (p q : Fin 1024) :
    scAt0_0 m c n h acc (ix2 p q) = acc (ix2 p q) + addend m c n (ix2 p q) := by
  unfold scAt0_0
  rw [dif_neg h0]
  by_cases h1 : n % 4 = 3
  · rw [dif_pos h1]
    refine (congrFun (acc_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun hh => h0 ((hcond0_0 ⟨n, h⟩).mp hh)) ((hcond0_1 ⟨n, h⟩).mpr h1) (iblk m c 0 ⟨n, h⟩) (iblk m c 1 ⟨n, h⟩) acc) (ix2 p q)).trans ?_
    refine (step_apply (iblk m c 0 ⟨n, h⟩) (iblk m c 1 ⟨n, h⟩) acc p q).trans ?_
    rw [addend_of_lt m c n h]
  · rw [dif_neg h1]
    refine (congrFun (acc_middle (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) acc) (ix2 p q)).trans ?_
    refine (step_apply (iblk m c 0 ⟨n, h⟩) (iblk m c 1 ⟨n, h⟩) acc p q).trans ?_
    rw [addend_of_lt m c n h]

/-- THE FOLD OF A RUN: after the points `b … b + j` of a run starting at `b`, the accumulator holds zero plus the sum of their
    addends. -/
theorem fold_sum (c : Dev nD) (b : ℕ) (hb : b % 4 = 0) (j : ℕ) (hj : j ≤ 3) (h : b + j < cfg0.N) (i : S1024x1024.Idx) :
    Pipeline.accAt (fun n h => scAt0_0 m c n h (VS0_0.read (Elt Ideal) VS0_0.junk)) (scAt0_0 m c) b j h i
      = 0 + ∑ s ∈ Finset.range (j + 1), addend m c (b + s) i :=
  Pipeline.accAt_add_apply (ι := S1024x1024.Idx) (β := EReal) (fun n h => scAt0_0 m c n h (VS0_0.read (Elt Ideal) VS0_0.junk)) (scAt0_0 m c)
    (fun _ => 0) (addend m c) b 3
    (fun h i => by
      obtain ⟨p, q, rfl⟩ : ∃ (p q : Fin 1024), i = ix2 p q := ⟨i 0, i 1, eq_ix2 i⟩
      exact scratch_first m c b h hb _ p q)
    (fun n h acc i hlt hle => by
      obtain ⟨p, q, rfl⟩ : ∃ (p q : Fin 1024), i = ix2 p q := ⟨i 0, i 1, eq_ix2 i⟩
      exact scratch_next m c n h (by omega) acc p q)
    j hj h i

/-- So after the last point `t` of a run the accumulator holds zero plus the run's four addends. -/
theorem scratch_last (c : Dev nD) (t : Fin cfg0.N) (h1 : t.val % 4 = 3) (i : S1024x1024.Idx) :
    (outsAt0 m c t.val t.isLt).2 i = 0 + ∑ s ∈ Finset.range 4, addend m c (t.val - 3 + s) i := by
  have hb : 4 * (t.val / 4) = t.val - 3 := by omega
  refine (congrFun (soutsAt0_0_eq m c t) i).trans ?_
  refine (fold_sum m c (4 * (t.val / 4)) (by omega) (t.val % 4) (by omega) _ i).trans ?_
  rw [h1, hb]

/-- WHAT THE LAST POINT OF A RUN WRITES BACK: its output block holds the accumulator's final value. -/
theorem flushed_last (c : Dev nD) (t : Fin cfg0.N) (h1 : t.val % 4 = 3) (p q : Fin 1024) :
    (dats m 0 c).flushed 2 t (ix2 p q) = 0 + ∑ s ∈ Finset.range 4, addend m c (t.val - 3 + s) (ix2 p q) := by
  have h0 : ¬t.val % 4 = 0 := by omega
  have e : (dats m 0 c).flushed 2 t (ix2 p q) = (outsAt0 m c t.val t.isLt).1 (ix2 p q) := congrFun (flushed2 m c t) (ix2 p q)
  have same : (outsAt0 m c t.val t.isLt).1 = (outsAt0 m c t.val t.isLt).2 := by
    rw [outsAt0_C m c t h0 h1]
    dsimp only
    exact (out_last (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2).trans
      (acc_last (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2).symm
  rw [e, same]
  exact scratch_last m c t h1 (ix2 p q)

end Cert.KernelIdeal.Fold

end
-- ==== Proof.KernelValue.lean ====
/-
  The kernel's result array is the binarized product of its two arguments.

  Number the grid's points `n = 0 … 127`; point `n` has coordinates `(n / 16, n / 4 % 4, n % 4)`. It reads block
  `(n / 16, n % 4)` of `x` and block `(n / 4 % 4, n % 4)` of `w`, and works on block `(n / 16, n / 4 % 4)` of the result; a block's
  entry `(p, r)` sits at `(block row · 1024 + p, block column · 1024 + r)` of its array. The result block is written back only
  at the points with `n % 4 = 3`.

  Fix such a point `t` and an entry `(p, q)` of its block, which is entry `(I, J)` of the result with `I = t / 16 · 1024 + p`
  and `J = t / 4 % 4 · 1024 + q`. The four points `t - 3 + s`, `s < 4`, share `t`'s first two coordinates and have third coordinate
  `s`: the addend of point `t - 3 + s` at `(p, q)` is the contraction of row `I` of the binarized `x` with row `J` of the binarized
  `w` over positions `s · 1024 … s · 1024 + 1023`, the `s`-th stretch of the whole contraction. What `t` writes back is the sum
  of the four, which is the whole contraction by the regrouping law. Every entry of the result lies in exactly such a block, so
  the array ends holding the product.
-/
import proofs.«170087_j74440373174392_1_alg».proof.Proof.Fold
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Value Cert.KernelIdeal.Fold Cert.BinDot Cert.Lib.SumBlocks

variable (m : (ℓ : Loc nD τ sig) → Buf (Elt Ideal) ℓ) (ρ : Dev nD → PrngReg)

/-- The three windows' block indices at point `n`, decided once over the grid. -/
theorem index_maps : ∀ n : Fin cfg0.N,
    win0_0.index n (0 : Fin 2) = n.val / 16 ∧ win0_0.index n (1 : Fin 2) = n.val % 4
    ∧ win0_1.index n (0 : Fin 2) = n.val / 4 % 4 ∧ win0_1.index n (1 : Fin 2) = n.val % 4
    ∧ win0_2.index n (0 : Fin 2) = n.val / 16 ∧ win0_2.index n (1 : Fin 2) = n.val / 4 % 4 :=
  (by decide +kernel : ∀ n : Fin grid0.N, _)

/-- Point `n`'s block of `x`, at `(p, r)`: `x` at row `n / 16 · 1024 + p`, position `n % 4 · 1024 + r`. -/
theorem x_block (c : Dev nD) (n : Fin cfg0.N) (p r : Fin 1024) (I : Fin 8192) (K : Fin 4096)
    (hI : I.val = n.val / 16 * 1024 + p.val) (hK : K.val = n.val % 4 * 1024 + r.val) :
    iblk m c 0 n (ix2 p r) = V m c main_arg0 (ix2 I K) := by
  obtain ⟨e0, e1, -, -, -, -⟩ := index_maps n
  unfold iblk
  rw [View.read_apply]
  show V m c main_arg0 _ = V m c main_arg0 _
  congr 1
  funext a
  apply Fin.ext
  match a with
  | ⟨0, _⟩ => show win0_0.index n (0 : Fin 2) * 1024 + 1 * p.val = I.val; rw [e0, hI]; omega
  | ⟨1, _⟩ => show win0_0.index n (1 : Fin 2) * 1024 + 1 * r.val = K.val; rw [e1, hK]; omega

/-- Point `n`'s block of `w`, at `(q, r)`: `w` at row `n / 4 % 4 · 1024 + q`, position `n % 4 · 1024 + r`. -/
theorem w_block (c : Dev nD) (n : Fin cfg0.N) (q r : Fin 1024) (J : Fin 4096) (K : Fin 4096)
    (hJ : J.val = n.val / 4 % 4 * 1024 + q.val) (hK : K.val = n.val % 4 * 1024 + r.val) :
    iblk m c 1 n (ix2 q r) = V m c main_arg1 (ix2 J K) := by
  obtain ⟨-, -, e2, e3, -, -⟩ := index_maps n
  unfold iblk
  rw [View.read_apply]
  show V m c main_arg1 _ = V m c main_arg1 _
  congr 1
  funext a
  apply Fin.ext
  match a with
  | ⟨0, _⟩ => show win0_1.index n (0 : Fin 2) * 1024 + 1 * q.val = J.val; rw [e2, hJ]; omega
  | ⟨1, _⟩ => show win0_1.index n (1 : Fin 2) * 1024 + 1 * r.val = K.val; rw [e3, hK]; omega

/-- THE ADDEND OF POINT `t - 3 + s` IS THE `s`-TH STRETCH of the whole contraction at the entry `(I, J)` that `(p, q)` of `t`'s block
    is. -/
theorem addend_stretch (c : Dev nD) (t : Fin cfg0.N) (h1 : t.val % 4 = 3) (s : ℕ) (hs : s < 4) (p q : Fin 1024)
    (I : Fin 8192) (J : Fin 4096) (hI : I.val = t.val / 16 * 1024 + p.val) (hJ : J.val = t.val / 4 % 4 * 1024 + q.val) :
    addend m c (t.val - 3 + s) (ix2 p q)
      = ∑ r : Fin 1024, onNat (term (V m c main_arg0) (V m c main_arg1) I J) (s * 1024 + r.val) := by
  have hN : cfg0.N = 128 := N_0
  have ht := t.isLt
  have hlt : t.val - 3 + s < cfg0.N := by omega
  rw [addend_of_lt m c _ hlt]
  show ∑ r : Fin 1024, bin (iblk m c 0 ⟨t.val - 3 + s, hlt⟩ (ix2 p r)) * bin (iblk m c 1 ⟨t.val - 3 + s, hlt⟩ (ix2 q r)) = _
  refine Finset.sum_congr rfl fun r _ => ?_
  have hr := r.isLt
  have hk : s * 1024 + r.val < 4096 := by omega
  rw [onNat_of_lt _ _ hk]
  show _ = bin (V m c main_arg0 (ix2 I ⟨s * 1024 + r.val, hk⟩)) * bin (V m c main_arg1 (ix2 J ⟨s * 1024 + r.val, hk⟩))
  exact congrArg₂ (· * ·)
    (congrArg bin (x_block m c ⟨t.val - 3 + s, hlt⟩ p r I ⟨s * 1024 + r.val, hk⟩
      (by show I.val = (t.val - 3 + s) / 16 * 1024 + p.val; omega)
      (by show s * 1024 + r.val = (t.val - 3 + s) % 4 * 1024 + r.val; omega)))
    (congrArg bin (w_block m c ⟨t.val - 3 + s, hlt⟩ q r J ⟨s * 1024 + r.val, hk⟩
      (by show J.val = (t.val - 3 + s) / 4 % 4 * 1024 + q.val; omega)
      (by show s * 1024 + r.val = (t.val - 3 + s) % 4 * 1024 + r.val; omega)))

/-- WHAT A WRITING POINT WRITES BACK is its block of the product of the argument arrays. -/
theorem flushed_eq (c : Dev nD) (t : Fin cfg0.N) (hf : (cfg0.win 2).flush t = true) :
    (dats m 0 c).flushed 2 t
      = ((cfg0.win 2).blk t).view.read (Elt Ideal) (out (V m c main_arg0) (V m c main_arg1)) := by
  have h1 : t.val % 4 = 3 := (flush0_2 t).mp hf
  have hN : cfg0.N = 128 := N_0
  have ht := t.isLt
  obtain ⟨-, -, -, -, e4, e5⟩ := index_maps t
  refine funext fun (j : S1024x1024.Idx) => ?_
  obtain ⟨p, q, rfl⟩ : ∃ (p q : Fin 1024), j = ix2 p q := ⟨j 0, j 1, eq_ix2 j⟩
  have hp := p.isLt
  have hq := q.isLt
  obtain ⟨I, hI⟩ : ∃ I : Fin 8192, I.val = t.val / 16 * 1024 + p.val := ⟨⟨t.val / 16 * 1024 + p.val, by omega⟩, rfl⟩
  obtain ⟨J, hJ⟩ : ∃ J : Fin 4096, J.val = t.val / 4 % 4 * 1024 + q.val := ⟨⟨t.val / 4 % 4 * 1024 + q.val, by omega⟩, rfl⟩
  have hemb : ((cfg0.win 2).blk t).view.emb (ix2 p q) = ix2 I J := by
    funext a
    apply Fin.ext
    match a with
    | ⟨0, _⟩ => show win0_2.index t (0 : Fin 2) * 1024 + 1 * p.val = I.val; rw [e4, hI]; omega
    | ⟨1, _⟩ => show win0_2.index t (1 : Fin 2) * 1024 + 1 * q.val = J.val; rw [e5, hJ]; omega
  rw [View.read_apply, hemb]
  refine (flushed_last m c t h1 p q).trans ?_
  show (0 : EReal) + ∑ s ∈ Finset.range 4, addend m c (t.val - 3 + s) (ix2 p q)
    = out (V m c main_arg0) (V m c main_arg1) (ix2 I J)
  rw [zero_add]
  refine Eq.trans ?_ (out_eq_stretches (V m c main_arg0) (V m c main_arg1) (ix2 I J)).symm
  exact Finset.sum_congr rfl fun s hs => addend_stretch m c t h1 s (Finset.mem_range.mp hs) p q I J hI hJ

/-- An entry of the result is in point `t`'s block iff each coordinate is in the block's range on its axis. -/
theorem mem_blk (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- EVERY ENTRY OF THE RESULT IS WRITTEN: entry `(I, J)` lies in the block of the writing point with first coordinate `I / 1024`
    and second `J / 1024`. -/
theorem cover (i : S8192x4096.Idx) :
    ∃ t : Fin cfg0.N, (cfg0.win 2).flush t = true ∧ i ∈ ((cfg0.win 2).blk t).view.set := by
  have hN : cfg0.N = 128 := N_0
  have hi0 : (i 0).val < 8192 := (i 0).isLt
  have hi1 : (i 1).val < 4096 := (i 1).isLt
  obtain ⟨t, ht⟩ : ∃ t : Fin cfg0.N, t.val = 16 * ((i 0).val / 1024) + 4 * ((i 1).val / 1024) + 3 :=
    ⟨⟨16 * ((i 0).val / 1024) + 4 * ((i 1).val / 1024) + 3, by omega⟩, rfl⟩
  obtain ⟨-, -, -, -, e4, e5⟩ := index_maps t
  refine ⟨t, (flush0_2 t).mpr (by omega), ?_⟩
  rw [mem_blk]
  intro a
  match a with
  | ⟨0, _⟩ => show win0_2.index t (0 : Fin 2) * 1024 ≤ (i 0).val ∧ (i 0).val < win0_2.index t (0 : Fin 2) * 1024 + 1024; rw [e4]; omega
  | ⟨1, _⟩ => show win0_2.index t (1 : Fin 2) * 1024 ≤ (i 1).val ∧ (i 1).val < win0_2.index t (1 : Fin 2) * 1024 + 1024; rw [e5]; omega

/-- THE RESULT ARRAY after the run is the binarized product of the argument arrays. -/
theorem final (c : Dev nD) : (dats m 0 c).arrAt 2 cfg0.N = out (V m c main_arg0) (V m c main_arg1) :=
  (dats m 0 c).arrAt_eq_of_cover 2 (out (V m c main_arg0) (V m c main_arg1)) (fun t hf => flushed_eq m c t hf) cover

/-- The kernel's run, read: every weakly fair execution ends with the result array at the binarized product of the two
    arguments as launched, the arguments unchanged. -/
theorem run : θ_run defs (onTc (τ := τ) (main (F := Ideal))) ⟨m, fun _ => 0, ρ⟩ fun r => ∀ c : Dev nD,
      r.2.mem ((c : Thread nD τ).loc main_v0) = out (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KernelValue

end
-- ==== Proof.RefValue.lean ====
/-
  The reference's result, index by index, is the binarized product.

  The reference adds the offset to every entry of `x` and of `w`, takes the host's sign of each, transposes the second sign
  matrix and multiplies. Entry `i = (r, c)` of the product is the sum over `k` of the first matrix at `(r, k)` times the
  transposed second at `(k, c)`, that is the second at `(c, k)`; and the host's sign is the sign of an extended real. So the entry
  is `Σ_k sign (x (r, k) + ε) · sign (w (c, k) + ε)`.
-/
import proofs.«170087_j74440373174392_1_alg».proof.Proof.Gen.ReferenceIdeal.Read
import proofs.«170087_j74440373174392_1_alg».proof.Proof.BinDot

noncomputable section

open Idealize.ShloMosaic Idealize.ShloMosaic.ValueIdx

namespace Cert.ReferenceIdeal.RefValue

open Cert.ReferenceIdeal Cert.ReferenceIdeal.Gen Cert.ReferenceIdeal.Read Cert.BinDot

/-- The product's first operand is read at row `i 0`, position `k`. -/
theorem left_pos (i : S8192x4096.Idx) (k : Fin 4096) : lidx_main_v7 i k = ix2 (i 0) k :=
  funext fun a => Fin.ext (by match a with | ⟨0, _⟩ => rfl | ⟨1, _⟩ => rfl)

/-- The product's second operand is the transpose, read at `(k, i 1)`: the untransposed matrix at row `i 1`, position `k`. -/
theorem right_pos (i : S8192x4096.Idx) (k : Fin 4096) : idx_main_v6 (ridx_main_v7 i k) = ix2 (i 1) k :=
  funext fun a => Fin.ext (by match a with | ⟨0, _⟩ => rfl | ⟨1, _⟩ => rfl)

/-- THE REFERENCE IS THE BINARIZED PRODUCT of its two arguments. -/
theorem ref_eq (x : (⟨S8192x4096, .f32⟩ : BufTy).Contents (Elt Ideal)) (w : (⟨S4096x4096, .f32⟩ : BufTy).Contents (Elt Ideal)) :
    val_main_v7 (F := Ideal) x w = out x w := by
  funext i
  rw [val_main_v7_apply]
  unfold out
  refine Finset.sum_congr rfl fun k _ => ?_
  rw [val_main_v2_apply, val_main_v1_apply, val_main_v0_apply, val_main_cst_apply,
    val_main_v6_apply, val_main_v5_apply, val_main_v4_apply, val_main_v3_apply, val_main_cst_0_apply,
    left_pos, right_pos]
  rfl

end Cert.ReferenceIdeal.RefValue

end
-- ==== Proof.lean ====
/-
  Binarized linear layer: a tiled accumulating kernel against one whole matrix product.

  Both programs take `x` (8192 × 4096) and `w` (4096 × 4096), add the same small offset `ε` to every entry, take the sign of the
  result (`-1`, `0` or `1`) and contract the two sign matrices along their second axes:

      out (r, c) = Σ_{k < 4096} sign (x (r, k) + ε) · sign (w (c, k) + ε).

  The reference does this with one transpose and one matrix product. The kernel works block by block: for each 1024 × 1024 block
  of the result it walks the contracted axis in four stretches of 1024, keeping a running sum that it resets to zero at the first
  stretch, adds each stretch's block product to, and copies out after the fourth. Over the extended reals the two results are
  equal entry by entry, for every input, by two facts:

    * the kernel's lowered sign — "one or minus one by the sign bit where the magnitude is above zero, else the entry itself" —
      and the host's sign are the same function of an extended real (zero at zero, ∓1 at the infinities);
    * a finite sum may be regrouped into consecutive blocks, which uses only that addition is associative and commutative.

  Neither needs the entries to be finite, so the precondition is never opened. The narrowing of the sign blocks to sixteen bits
  before the product changes nothing over the extended reals.

  The kernel's idealization rewrote two reads of a sign bit into comparisons with zero; each is the sign-bit rule's own statement.
  The three programs' runs (termination, no fault, arguments unchanged) are the generated frame runs; for the reference, its
  generated run with the result dropped.
-/
import proofs.«170087_j74440373174392_1_alg».proof.Defs
import proofs.«170087_j74440373174392_1_alg».proof.Proof.Gen.Kernel
import proofs.«170087_j74440373174392_1_alg».proof.Proof.Gen.Kernel.Frame
import proofs.«170087_j74440373174392_1_alg».proof.Proof.Gen.KernelIdeal
import proofs.«170087_j74440373174392_1_alg».proof.Proof.Gen.KernelIdeal.Frame
import proofs.«170087_j74440373174392_1_alg».proof.Proof.Gen.KernelIdeal.Value
import proofs.«170087_j74440373174392_1_alg».proof.Proof.Gen.ReferenceIdeal
import proofs.«170087_j74440373174392_1_alg».proof.Proof.Gen.ReferenceIdeal.Run
import proofs.«170087_j74440373174392_1_alg».proof.Proof.Gen.ReferenceIdeal.Read
import proofs.«170087_j74440373174392_1_alg».proof.Proof.Gen.Pre_finite_inputs
import proofs.«170087_j74440373174392_1_alg».proof.Proof.KernelValue
import proofs.«170087_j74440373174392_1_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization's two rewrites: "one with this entry's sign bit" is minus one below zero and one otherwise, once for
    each input block. -/
theorem preserves : Cert.preserves_Kernel_KernelIdeal :=
  ⟨IdealRules.sign_bit.statement _ _, IdealRules.sign_bit.statement _ _⟩

/-- Over the extended reals, from memories that agree on `x` and `w`, both programs end with the result at the binarized
    product of the two arguments: the kernel block by block along the contracted axis, the reference in one product. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
